-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x9216 : Shape := ⟨2, ![64, 9216]⟩
abbrev S5x5 : Shape := ⟨2, ![5, 5]⟩
abbrev S_ : Shape := ⟨0, ![]⟩

class Facts : Prop where
  bcast_S_S64x9216 : S_.BroadcastsInDim S64x9216 (![] : Fin 0 → Fin S64x9216.rank)
  reducesTo_S64x9216_S_d0_1 : S64x9216.ReducesTo [0, 1] S_
  h_S_ : 0 < S_.numel
  bcast_S_S5x5 : S_.BroadcastsInDim S5x5 (![] : Fin 0 → Fin S5x5.rank)
  reducesTo_S5x5_S_d0_1 : S5x5.ReducesTo [0, 1] S_

variable [Facts]

def fn {F : FTy → Type} [FloatOps F] (main_arg0 : FVec F S64x9216 .f32) (main_arg1 : FVec F S5x5 .f32) : IVec S_ 1 :=
  let main_v0 : FVec F S64x9216 .f32 := Host.absf main_arg0
  let main_cst : FVec F S_ .f32 := constant S_ .f32 0x7F800000#32
  let main_v1 : FVec F S64x9216 .f32 := broadcastInDim S64x9216 ![] bcast_S_S64x9216 main_cst
  let main_v2 : IVec S64x9216 1 := cmpf .olt main_v0 main_v1
  let main_c : IVec S_ 1 := constantI S_ 1 1#1
  let main_v3 : IVec S_ 1 := (fun x v => Host.reduce IntOp.andi x v reducesTo_S64x9216_S_d0_1 h_S_) main_v2 main_c
  let main_v4 : FVec F S5x5 .f32 := Host.absf main_arg1
  let main_cst_0 : FVec F S_ .f32 := constant S_ .f32 0x7F800000#32
  let main_v5 : FVec F S5x5 .f32 := broadcastInDim S5x5 ![] bcast_S_S5x5 main_cst_0
  let main_v6 : IVec S5x5 1 := cmpf .olt main_v4 main_v5
  let main_c_1 : IVec S_ 1 := constantI S_ 1 1#1
  let main_v7 : IVec S_ 1 := (fun x v => Host.reduce IntOp.andi x v reducesTo_S5x5_S_d0_1 h_S_) main_v6 main_c_1
  let main_v8 : IVec S_ 1 := andi main_v3 main_v7
  main_v8
-- ==== Kernel.lean ====
abbrev S64x9216 : Shape := ⟨2, ![64, 9216]⟩
abbrev S5x5 : Shape := ⟨2, ![5, 5]⟩
abbrev S64x96x96 : Shape := ⟨3, ![64, 96, 96]⟩
abbrev S64x92x92 : Shape := ⟨3, ![64, 92, 92]⟩
abbrev S16x96x96 : Shape := ⟨3, ![16, 96, 96]⟩
abbrev S16x92x92 : Shape := ⟨3, ![16, 92, 92]⟩
abbrev S1x1 : Shape := ⟨2, ![1, 1]⟩
abbrev S64x8464 : Shape := ⟨2, ![64, 8464]⟩

abbrev nBuf : Space → Nat
  | .hbm => 5
  | .vmem => 5
  | .smem => 0
  | _ => 0

abbrev bufTy : (tb : Table) → Fin (tcTables nBuf tb) → BufTy
  | .hbm, ⟨0, _⟩ => ⟨S64x9216, .f32⟩
  | .hbm, ⟨1, _⟩ => ⟨S5x5, .f32⟩
  | .hbm, ⟨2, _⟩ => ⟨S64x96x96, .f32⟩
  | .hbm, ⟨3, _⟩ => ⟨S64x92x92, .f32⟩
  | .hbm, ⟨4, _⟩ => ⟨S64x8464, .f32⟩
  | .local _ .vmem, ⟨0, _⟩ => ⟨S16x96x96, .f32⟩
  | .local _ .vmem, ⟨1, _⟩ => ⟨S16x96x96, .f32⟩
  | .local _ .vmem, ⟨2, _⟩ => ⟨S5x5, .f32⟩
  | .local _ .vmem, ⟨3, _⟩ => ⟨S16x92x92, .f32⟩
  | .local _ .vmem, ⟨4, _⟩ => ⟨S16x92x92, .f32⟩
  | _, _ => ⟨S64x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x96x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x92x92 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x9216_S64x96x96 : S64x9216.ShapeCasts S64x96x96
  inb_S5x5_S1x1_0_0 : ∀ a, (![0, 0] : Fin 2 → Nat) a + S1x1.size a ≤ S5x5.size a
  h_S1x1 : 0 < S1x1.numel
  inpos_S1x1_p0_0 : ∀ a, (![0, 0] : Fin 2 → Nat) a < S1x1.size a
  inb_S16x96x96_S16x92x92_0_0_0 : ∀ a, (![0, 0, 0] : Fin 3 → Nat) a + S16x92x92.size a ≤ S16x96x96.size a
  h_S16x92x92 : 0 < S16x92x92.numel
  shapeCasts_S16x92x92_S16x92x92 : S16x92x92.ShapeCasts S16x92x92
  inb_S5x5_S1x1_0_1 : ∀ a, (![0, 1] : Fin 2 → Nat) a + S1x1.size a ≤ S5x5.size a
  inb_S16x96x96_S16x92x92_0_0_1 : ∀ a, (![0, 0, 1] : Fin 3 → Nat) a + S16x92x92.size a ≤ S16x96x96.size a
  inb_S5x5_S1x1_0_2 : ∀ a, (![0, 2] : Fin 2 → Nat) a + S1x1.size a ≤ S5x5.size a
  inb_S16x96x96_S16x92x92_0_0_2 : ∀ a, (![0, 0, 2] : Fin 3 → Nat) a + S16x92x92.size a ≤ S16x96x96.size a
  inb_S5x5_S1x1_0_3 : ∀ a, (![0, 3] : Fin 2 → Nat) a + S1x1.size a ≤ S5x5.size a
  inb_S16x96x96_S16x92x92_0_0_3 : ∀ a, (![0, 0, 3] : Fin 3 → Nat) a + S16x92x92.size a ≤ S16x96x96.size a
  inb_S5x5_S1x1_0_4 : ∀ a, (![0, 4] : Fin 2 → Nat) a + S1x1.size a ≤ S5x5.size a
  inb_S16x96x96_S16x92x92_0_0_4 : ∀ a, (![0, 0, 4] : Fin 3 → Nat) a + S16x92x92.size a ≤ S16x96x96.size a
  inb_S5x5_S1x1_1_0 : ∀ a, (![1, 0] : Fin 2 → Nat) a + S1x1.size a ≤ S5x5.size a
  inb_S16x96x96_S16x92x92_0_1_0 : ∀ a, (![0, 1, 0] : Fin 3 → Nat) a + S16x92x92.size a ≤ S16x96x96.size a
  inb_S5x5_S1x1_1_1 : ∀ a, (![1, 1] : Fin 2 → Nat) a + S1x1.size a ≤ S5x5.size a
  inb_S16x96x96_S16x92x92_0_1_1 : ∀ a, (![0, 1, 1] : Fin 3 → Nat) a + S16x92x92.size a ≤ S16x96x96.size a
  inb_S5x5_S1x1_1_2 : ∀ a, (![1, 2] : Fin 2 → Nat) a + S1x1.size a ≤ S5x5.size a
  inb_S16x96x96_S16x92x92_0_1_2 : ∀ a, (![0, 1, 2] : Fin 3 → Nat) a + S16x92x92.size a ≤ S16x96x96.size a
  inb_S5x5_S1x1_1_3 : ∀ a, (![1, 3] : Fin 2 → Nat) a + S1x1.size a ≤ S5x5.size a
  inb_S16x96x96_S16x92x92_0_1_3 : ∀ a, (![0, 1, 3] : Fin 3 → Nat) a + S16x92x92.size a ≤ S16x96x96.size a
  inb_S5x5_S1x1_1_4 : ∀ a, (![1, 4] : Fin 2 → Nat) a + S1x1.size a ≤ S5x5.size a
  inb_S16x96x96_S16x92x92_0_1_4 : ∀ a, (![0, 1, 4] : Fin 3 → Nat) a + S16x92x92.size a ≤ S16x96x96.size a
  inb_S5x5_S1x1_2_0 : ∀ a, (![2, 0] : Fin 2 → Nat) a + S1x1.size a ≤ S5x5.size a
  inb_S16x96x96_S16x92x92_0_2_0 : ∀ a, (![0, 2, 0] : Fin 3 → Nat) a + S16x92x92.size a ≤ S16x96x96.size a
  inb_S5x5_S1x1_2_1 : ∀ a, (![2, 1] : Fin 2 → Nat) a + S1x1.size a ≤ S5x5.size a
  inb_S16x96x96_S16x92x92_0_2_1 : ∀ a, (![0, 2, 1] : Fin 3 → Nat) a + S16x92x92.size a ≤ S16x96x96.size a
  inb_S5x5_S1x1_2_2 : ∀ a, (![2, 2] : Fin 2 → Nat) a + S1x1.size a ≤ S5x5.size a
  inb_S16x96x96_S16x92x92_0_2_2 : ∀ a, (![0, 2, 2] : Fin 3 → Nat) a + S16x92x92.size a ≤ S16x96x96.size a
  inb_S5x5_S1x1_2_3 : ∀ a, (![2, 3] : Fin 2 → Nat) a + S1x1.size a ≤ S5x5.size a
  inb_S16x96x96_S16x92x92_0_2_3 : ∀ a, (![0, 2, 3] : Fin 3 → Nat) a + S16x92x92.size a ≤ S16x96x96.size a
  inb_S5x5_S1x1_2_4 : ∀ a, (![2, 4] : Fin 2 → Nat) a + S1x1.size a ≤ S5x5.size a
  inb_S16x96x96_S16x92x92_0_2_4 : ∀ a, (![0, 2, 4] : Fin 3 → Nat) a + S16x92x92.size a ≤ S16x96x96.size a
  inb_S5x5_S1x1_3_0 : ∀ a, (![3, 0] : Fin 2 → Nat) a + S1x1.size a ≤ S5x5.size a
  inb_S16x96x96_S16x92x92_0_3_0 : ∀ a, (![0, 3, 0] : Fin 3 → Nat) a + S16x92x92.size a ≤ S16x96x96.size a
  inb_S5x5_S1x1_3_1 : ∀ a, (![3, 1] : Fin 2 → Nat) a + S1x1.size a ≤ S5x5.size a
  inb_S16x96x96_S16x92x92_0_3_1 : ∀ a, (![0, 3, 1] : Fin 3 → Nat) a + S16x92x92.size a ≤ S16x96x96.size a
  inb_S5x5_S1x1_3_2 : ∀ a, (![3, 2] : Fin 2 → Nat) a + S1x1.size a ≤ S5x5.size a
  inb_S16x96x96_S16x92x92_0_3_2 : ∀ a, (![0, 3, 2] : Fin 3 → Nat) a + S16x92x92.size a ≤ S16x96x96.size a
  inb_S5x5_S1x1_3_3 : ∀ a, (![3, 3] : Fin 2 → Nat) a + S1x1.size a ≤ S5x5.size a
  inb_S16x96x96_S16x92x92_0_3_3 : ∀ a, (![0, 3, 3] : Fin 3 → Nat) a + S16x92x92.size a ≤ S16x96x96.size a
  inb_S5x5_S1x1_3_4 : ∀ a, (![3, 4] : Fin 2 → Nat) a + S1x1.size a ≤ S5x5.size a
  inb_S16x96x96_S16x92x92_0_3_4 : ∀ a, (![0, 3, 4] : Fin 3 → Nat) a + S16x92x92.size a ≤ S16x96x96.size a
  inb_S5x5_S1x1_4_0 : ∀ a, (![4, 0] : Fin 2 → Nat) a + S1x1.size a ≤ S5x5.size a
  inb_S16x96x96_S16x92x92_0_4_0 : ∀ a, (![0, 4, 0] : Fin 3 → Nat) a + S16x92x92.size a ≤ S16x96x96.size a
  inb_S5x5_S1x1_4_1 : ∀ a, (![4, 1] : Fin 2 → Nat) a + S1x1.size a ≤ S5x5.size a
  inb_S16x96x96_S16x92x92_0_4_1 : ∀ a, (![0, 4, 1] : Fin 3 → Nat) a + S16x92x92.size a ≤ S16x96x96.size a
  inb_S5x5_S1x1_4_2 : ∀ a, (![4, 2] : Fin 2 → Nat) a + S1x1.size a ≤ S5x5.size a
  inb_S16x96x96_S16x92x92_0_4_2 : ∀ a, (![0, 4, 2] : Fin 3 → Nat) a + S16x92x92.size a ≤ S16x96x96.size a
  inb_S5x5_S1x1_4_3 : ∀ a, (![4, 3] : Fin 2 → Nat) a + S1x1.size a ≤ S5x5.size a
  inb_S16x96x96_S16x92x92_0_4_3 : ∀ a, (![0, 4, 3] : Fin 3 → Nat) a + S16x92x92.size a ≤ S16x96x96.size a
  inb_S5x5_S1x1_4_4 : ∀ a, (![4, 4] : Fin 2 → Nat) a + S1x1.size a ≤ S5x5.size a
  inb_S16x96x96_S16x92x92_0_4_4 : ∀ a, (![0, 4, 4] : Fin 3 → Nat) a + S16x92x92.size a ≤ S16x96x96.size a
  inb_S16x92x92_S16x92x92_0_0_0 : ∀ a, (![0, 0, 0] : Fin 3 → Nat) a + S16x92x92.size a ≤ S16x92x92.size a
  shapeCasts_S64x92x92_S64x8464 : S64x92x92.ShapeCasts S64x8464
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x96x96.size a ≤ S64x96x96.size a
  hwx0_0 : ∀ i : grid0.Coords, EltTy.bits .f32 = 32 ∨ (Rect.block (s := S64x96x96) S16x96x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x5.size a ≤ S5x5.size a
  hwx0_1 : ∀ i : grid0.Coords, EltTy.bits .f32 = 32 ∨ (Rect.block (s := S5x5) S5x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x92x92.size a ≤ S64x92x92.size a
  hwx0_2 : ∀ i : grid0.Coords, EltTy.bits .f32 = 32 ∨ (Rect.block (s := S64x92x92) S16x92x92.size (cc0_transform_2 i) (hinb0_2 i)).WholeWords (EltTy.packing .f32)

variable [Facts₀]

abbrev win0_0 : Pipeline.Window sig grid0 :=
  Pipeline.Window.ofSpec (Memref.whole main_v0) S16x96x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x92x92.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x9216 : Shape := ⟨2, ![64, 9216]⟩
abbrev S5x5 : Shape := ⟨2, ![5, 5]⟩
abbrev S92 : Shape := ⟨1, ![92]⟩
abbrev S92x92 : Shape := ⟨2, ![92, 92]⟩
abbrev S5 : Shape := ⟨1, ![5]⟩
abbrev S92x92x1x1 : Shape := ⟨4, ![92, 92, 1, 1]⟩
abbrev S1x1x5x5 : Shape := ⟨4, ![1, 1, 5, 5]⟩
abbrev S92x92x5x5 : Shape := ⟨4, ![92, 92, 5, 5]⟩
abbrev S_ : Shape := ⟨0, ![]⟩
abbrev S8464x25 : Shape := ⟨2, ![8464, 25]⟩
abbrev S8464 : Shape := ⟨1, ![8464]⟩
abbrev S8464x1 : Shape := ⟨2, ![8464, 1]⟩
abbrev S25 : Shape := ⟨1, ![25]⟩
abbrev S8464x9216 : Shape := ⟨2, ![8464, 9216]⟩
abbrev S8464x25x1 : Shape := ⟨3, ![8464, 25, 1]⟩
abbrev S8464x25x2 : Shape := ⟨3, ![8464, 25, 2]⟩
abbrev S9216x8464 : Shape := ⟨2, ![9216, 8464]⟩
abbrev S64x8464 : Shape := ⟨2, ![64, 8464]⟩

abbrev nBuf : Space → Nat
  | .hbm => 52
  | .vmem => 0
  | .smem => 0
  | _ => 0

abbrev bufTy : (tb : Table) → Fin (tcTables nBuf tb) → BufTy
  | .hbm, ⟨0, _⟩ => ⟨S64x9216, .f32⟩
  | .hbm, ⟨1, _⟩ => ⟨S5x5, .f32⟩
  | .hbm, ⟨2, _⟩ => ⟨S92, .i32⟩
  | .hbm, ⟨3, _⟩ => ⟨S92, .i32⟩
  | .hbm, ⟨4, _⟩ => ⟨S92x92, .i32⟩
  | .hbm, ⟨5, _⟩ => ⟨S92x92, .i32⟩
  | .hbm, ⟨6, _⟩ => ⟨S5, .i32⟩
  | .hbm, ⟨7, _⟩ => ⟨S5, .i32⟩
  | .hbm, ⟨8, _⟩ => ⟨S5x5, .i32⟩
  | .hbm, ⟨9, _⟩ => ⟨S5x5, .i32⟩
  | .hbm, ⟨10, _⟩ => ⟨S92x92x1x1, .i32⟩
  | .hbm, ⟨11, _⟩ => ⟨S1x1x5x5, .i32⟩
  | .hbm, ⟨12, _⟩ => ⟨S92x92x5x5, .i32⟩
  | .hbm, ⟨13, _⟩ => ⟨S92x92x5x5, .i32⟩
  | .hbm, ⟨14, _⟩ => ⟨S92x92x5x5, .i32⟩
  | .hbm, ⟨15, _⟩ => ⟨S_, .i32⟩
  | .hbm, ⟨16, _⟩ => ⟨S92x92x5x5, .i32⟩
  | .hbm, ⟨17, _⟩ => ⟨S92x92x5x5, .i32⟩
  | .hbm, ⟨18, _⟩ => ⟨S92x92x1x1, .i32⟩
  | .hbm, ⟨19, _⟩ => ⟨S1x1x5x5, .i32⟩
  | .hbm, ⟨20, _⟩ => ⟨S92x92x5x5, .i32⟩
  | .hbm, ⟨21, _⟩ => ⟨S92x92x5x5, .i32⟩
  | .hbm, ⟨22, _⟩ => ⟨S92x92x5x5, .i32⟩
  | .hbm, ⟨23, _⟩ => ⟨S92x92x5x5, .i32⟩
  | .hbm, ⟨24, _⟩ => ⟨S8464x25, .i32⟩
  | .hbm, ⟨25, _⟩ => ⟨S8464, .i32⟩
  | .hbm, ⟨26, _⟩ => ⟨S8464x1, .i32⟩
  | .hbm, ⟨27, _⟩ => ⟨S25, .f32⟩
  | .hbm, ⟨28, _⟩ => ⟨S8464x25, .f32⟩
  | .hbm, ⟨29, _⟩ => ⟨S_, .f32⟩
  | .hbm, ⟨30, _⟩ => ⟨S8464x9216, .f32⟩
  | .hbm, ⟨31, _⟩ => ⟨S_, .i32⟩
  | .hbm, ⟨32, _⟩ => ⟨S8464x1, .i32⟩
  | .hbm, ⟨33, _⟩ => ⟨S8464x1, .i1⟩
  | .hbm, ⟨34, _⟩ => ⟨S_, .i32⟩
  | .hbm, ⟨35, _⟩ => ⟨S8464x1, .i32⟩
  | .hbm, ⟨36, _⟩ => ⟨S8464x1, .i32⟩
  | .hbm, ⟨37, _⟩ => ⟨S8464x1, .i32⟩
  | .hbm, ⟨38, _⟩ => ⟨S_, .i32⟩
  | .hbm, ⟨39, _⟩ => ⟨S8464x25, .i32⟩
  | .hbm, ⟨40, _⟩ => ⟨S8464x25, .i1⟩
  | .hbm, ⟨41, _⟩ => ⟨S_, .i32⟩
  | .hbm, ⟨42, _⟩ => ⟨S8464x25, .i32⟩
  | .hbm, ⟨43, _⟩ => ⟨S8464x25, .i32⟩
  | .hbm, ⟨44, _⟩ => ⟨S8464x25, .i32⟩
  | .hbm, ⟨45, _⟩ => ⟨S8464x25, .i32⟩
  | .hbm, ⟨46, _⟩ => ⟨S8464x25x1, .i32⟩
  | .hbm, ⟨47, _⟩ => ⟨S8464x25x1, .i32⟩
  | .hbm, ⟨48, _⟩ => ⟨S8464x25x2, .i32⟩
  | .hbm, ⟨49, _⟩ => ⟨S8464x9216, .f32⟩
  | .hbm, ⟨50, _⟩ => ⟨S9216x8464, .f32⟩
  | .hbm, ⟨51, _⟩ => ⟨S64x8464, .f32⟩
  | _, _ => ⟨S64x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst : Ref sig .tc := ⟨.hbm, 29, rfl⟩
abbrev main_v26 : Ref sig .tc := ⟨.hbm, 30, rfl⟩
abbrev main_c_0 : Ref sig .tc := ⟨.hbm, 31, rfl⟩
abbrev main_v27 : Ref sig .tc := ⟨.hbm, 32, rfl⟩
abbrev main_v28 : Ref sig .tc := ⟨.hbm, 33, rfl⟩
abbrev main_c_1 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c_2 : Ref sig .tc := ⟨.hbm, 38, rfl⟩
abbrev main_v32 : Ref sig .tc := ⟨.hbm, 39, rfl⟩
abbrev main_v33 : Ref sig .tc := ⟨.hbm, 40, rfl⟩
abbrev main_c_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩

abbrev nD : Nat := 1
abbrev τ : Topo := Topo.v7x

variable {F : FTy → Type} [FloatOps F]

class Facts₀ : Prop where
  bcast_S92_S92x92_0 : S92.BroadcastsInDim S92x92 (![0] : Fin 1 → Fin S92x92.rank)
  bcast_S92_S92x92_1 : S92.BroadcastsInDim S92x92 (![1] : Fin 1 → Fin S92x92.rank)
  bcast_S5_S5x5_0 : S5.BroadcastsInDim S5x5 (![0] : Fin 1 → Fin S5x5.rank)
  bcast_S5_S5x5_1 : S5.BroadcastsInDim S5x5 (![1] : Fin 1 → Fin S5x5.rank)
  bcast_S92x92_S92x92x1x1_0_1 : S92x92.BroadcastsInDim S92x92x1x1 (![0, 1] : Fin 2 → Fin S92x92x1x1.rank)
  bcast_S5x5_S1x1x5x5_2_3 : S5x5.BroadcastsInDim S1x1x5x5 (![2, 3] : Fin 2 → Fin S1x1x5x5.rank)
  bcast_S92x92x1x1_S92x92x5x5_0_1_2_3 : S92x92x1x1.BroadcastsInDim S92x92x5x5 (![0, 1, 2, 3] : Fin 4 → Fin S92x92x5x5.rank)
  bcast_S1x1x5x5_S92x92x5x5_0_1_2_3 : S1x1x5x5.BroadcastsInDim S92x92x5x5 (![0, 1, 2, 3] : Fin 4 → Fin S92x92x5x5.rank)
  bcast_S_S92x92x5x5 : S_.BroadcastsInDim S92x92x5x5 (![] : Fin 0 → Fin S92x92x5x5.rank)
  shapeCasts_S92x92x5x5_S8464x25 : S92x92x5x5.ShapeCasts S8464x25
  bcast_S8464_S8464x1_0 : S8464.BroadcastsInDim S8464x1 (![0] : Fin 1 → Fin S8464x1.rank)
  shapeCasts_S5x5_S25 : S5x5.ShapeCasts S25
  bcast_S25_S8464x25_1 : S25.BroadcastsInDim S8464x25 (![1] : Fin 1 → Fin S8464x25.rank)
  bcast_S_S8464x9216 : S_.BroadcastsInDim S8464x9216 (![] : Fin 0 → Fin S8464x9216.rank)
  bcast_S_S8464x1 : S_.BroadcastsInDim S8464x1 (![] : Fin 0 → Fin S8464x1.rank)
  bcast_S_S8464x25 : S_.BroadcastsInDim S8464x25 (![] : Fin 0 → Fin S8464x25.rank)
  bcast_S8464x1_S8464x25_0_1 : S8464x1.BroadcastsInDim S8464x25 (![0, 1] : Fin 2 → Fin S8464x25.rank)
  bcast_S8464x25_S8464x25x1_0_1 : S8464x25.BroadcastsInDim S8464x25x1 (![0, 1] : Fin 2 → Fin S8464x25x1.rank)
  concatenates_S8464x25x1_S8464x25x1_S8464x25x2_d2 : Shape.Concatenates [S8464x25x1, S8464x25x1] S8464x25x2 2
  transposes_S8464x9216_S9216x8464_1_0 : S8464x9216.Transposes [1, 0] S9216x8464
  scatter_S8464x9216_S8464x25x2_S8464x25_n_01_01_2_wf : ScatterDims.WF S8464x9216 S8464x25x2 S8464x25 [] [0, 1] [0, 1] 2
  dot_S64x9216_S9216x8464_S64x8464_1_0_0_1_n_n_wf : DotDims.WF S64x9216 S9216x8464 S64x8464 [1] [0] [0] [1] [] []

variable [Facts₀]

def scatter_S8464x9216_S8464x25x2_S8464x25_n_01_01_2 : ScatterDims S8464x9216 S8464x25x2 S8464x25 where
  updateWindowDims := []
  insertedWindowDims := [0, 1]
  scatterDimsToOperandDims := [0, 1]
  indexVectorDim := 2
  wf := scatter_S8464x9216_S8464x25x2_S8464x25_n_01_01_2_wf
def dot_S64x9216_S9216x8464_S64x8464_1_0_0_1_n_n : DotDims S64x9216 S9216x8464 S64x8464 where
  lhsContracting := [1]
  rhsContracting := [0]
  lhsNonContracting := [0]
  rhsNonContracting := [1]
  lhsBatch := []
  rhsBatch := []
  wf := dot_S64x9216_S9216x8464_S64x8464_1_0_0_1_n_n_wf

class Facts : Prop extends Facts₀ where

variable [Facts]
-- ==== Proof.ConvSpec.lean ====
/-
  The function both programs compute: a 5x5 "valid" correlation of each row of `x`, read as a 96x96 image, with
  the taps `k` — output pixel `r = 92·oi + oj` of image `p` is the sum over the 25 taps `(a, b)` of
  `k[a, b] · x[p, (oi + a)·96 + (oj + b)]`.  Stated on the extended reals; every law used below is one of a
  commutative additive monoid with a zero-absorbing product, so nothing has to be finite.
-/
import Idealize.ShloMosaic.PureOps.Ideal
import Idealize.ShloMosaic.Lib.ValueIdx
import Mathlib

noncomputable section

namespace Cert.Conv

open Idealize.ShloMosaic Idealize.ShloMosaic.ValueIdx

/-- The column of the flattened image that tap `(a, b)` reads for output pixel `r`. -/
def col (r a b : Nat) : Nat := (r / 92 + a) * 96 + (r % 92 + b)

theorem col_lt {r a b : Nat} (hr : r < 8464) (ha : a < 5) (hb : b < 5) : col r a b < 9216 := by
  unfold col; omega

/-- For one output pixel, distinct taps read distinct columns. -/
theorem col_inj {r a b a' b' : Nat} (hb : b < 5) (hb' : b' < 5) (h : col r a b = col r a' b') : a = a' ∧ b = b' := by
  unfold col at h; omega

/-- The result array [64, 8464] as a function of `x` [64, 9216] and the taps `k` [5, 5]. -/
def conv (x : (⟨2, ![64, 9216]⟩ : Shape).Idx → EReal) (k : (⟨2, ![5, 5]⟩ : Shape).Idx → EReal) :
    (⟨2, ![64, 8464]⟩ : Shape).Idx → EReal :=
  fun i => ∑ a : Fin 5, ∑ b : Fin 5,
    k (ix2 a b) * x (ix2 (i 0) ⟨col (i 1).val a.val b.val, col_lt (i 1).isLt a.isLt b.isLt⟩)

/-- The same on images: `x3` [64, 96, 96], result [64, 92, 92]. -/
def conv3 (x3 : (⟨3, ![64, 96, 96]⟩ : Shape).Idx → EReal) (k : (⟨2, ![5, 5]⟩ : Shape).Idx → EReal) :
    (⟨3, ![64, 92, 92]⟩ : Shape).Idx → EReal :=
  fun i => ∑ a : Fin 5, ∑ b : Fin 5,
    k (ix2 a b) * x3 (ix3 (i 0) ⟨(i 1).val + a.val, by have h1 : (i 1).val < 92 := (i 1).isLt; have := a.isLt; show _ < 96; omega⟩
      ⟨(i 2).val + b.val, by have h2 : (i 2).val < 92 := (i 2).isLt; have := b.isLt; show _ < 96; omega⟩)

/-- A dense-matrix product against a matrix `W` [8464, 9216] whose row `r` holds tap `(a, b)` at column
    `col r a b` and zero everywhere else is the correlation: the zero columns drop out of the sum, and the 25 that
    remain are re-indexed by the taps. -/
theorem sum_mul_sparse_eq_conv (x : (⟨2, ![64, 9216]⟩ : Shape).Idx → EReal) (k : (⟨2, ![5, 5]⟩ : Shape).Idx → EReal)
    (W : (⟨2, ![8464, 9216]⟩ : Shape).Idx → EReal) (i : (⟨2, ![64, 8464]⟩ : Shape).Idx)
    (hW1 : ∀ a b : Fin 5, W (ix2 (i 1) ⟨col (i 1).val a.val b.val, col_lt (i 1).isLt a.isLt b.isLt⟩) = k (ix2 a b))
    (hW0 : ∀ c : Fin 9216, (∀ a b : Fin 5, c.val ≠ col (i 1).val a.val b.val) → W (ix2 (i 1) c) = 0) :
    ∑ c : Fin 9216, x (ix2 (i 0) c) * W (ix2 (i 1) c) = conv x k i := by
  unfold conv
  rw [← Fintype.sum_prod_type' (fun a b : Fin 5 =>
    k (ix2 a b) * x (ix2 (i 0) ⟨col (i 1).val a.val b.val, col_lt (i 1).isLt a.isLt b.isLt⟩))]
  symm
  refine Fintype.sum_of_injective
    (fun p : Fin 5 × Fin 5 => (⟨col (i 1).val p.1.val p.2.val, col_lt (i 1).isLt p.1.isLt p.2.isLt⟩ : Fin 9216)) ?_ _ _ ?_ ?_
  · intro p q h
    have h' : col (i 1).val p.1.val p.2.val = col (i 1).val q.1.val q.2.val := congrArg Fin.val h
    obtain ⟨e1, e2⟩ := col_inj p.2.isLt q.2.isLt h'
    exact Prod.ext (Fin.ext e1) (Fin.ext e2)
  · intro c hc
    rw [hW0 c (fun a b e => hc ⟨(a, b), Fin.ext e.symm⟩), mul_zero]
  · intro p
    show k (ix2 p.1 p.2) * _ = _ * _
    rw [hW1 p.1 p.2, mul_comm]

end Cert.Conv

end
-- ==== Proof.KernelBlock.lean ====
/-
  What the kernel's body leaves in its output block: for an input block `x0` [16, 96, 96] and the taps `x1`
  [5, 5], the entry at `(p, oi, oj)` is the running sum, started from zero, of the 25 products
  `x1[a, b] · x0[p, oi + a, oj + b]` taken in row-major order of the taps — the 5x5 correlation of image `p`.
  Each load of a shifted [16, 92, 92] window reads the block at the window's offset plus the position inside it;
  a change of shape to the same shape is the identity; the sum is re-associated (addition on the extended
  reals is associative, and zero is its neutral element).
-/
import proofs.«140146_j12618613916213_2_alg».proof.Proof.Gen.KernelIdeal.Frame
import proofs.«140146_j12618613916213_2_alg».proof.Proof.ConvSpec
import Idealize.ShloMosaic.Lib.Pipeline.Value
import Idealize.ShloMosaic.Lib.ValueIdx
import Idealize.ShloMosaic.PureOps.Ideal.Laws

set_option maxRecDepth 16384

noncomputable section

namespace Cert.KernelIdeal.Block

open Cert.KernelIdeal Cert.KernelIdeal.Gen Idealize.ShloMosaic Idealize.ShloMosaic.ValueIdx

/-- Position `(p, oi + a, oj + b)` of the input block, for position `(p, oi, oj)` of the output block. -/
def shift (y : S16x92x92.Idx) (a b : Fin 5) : S16x96x96.Idx :=
  ix3 (y 0) ⟨(y 1).val + a.val, by have h1 : (y 1).val < 92 := (y 1).isLt; have := a.isLt; show _ < 96; omega⟩
    ⟨(y 2).val + b.val, by have h2 : (y 2).val < 92 := (y 2).isLt; have := b.isLt; show _ < 96; omega⟩

/-- A load of the [16, 92, 92] window at offset `(0, a, b)`, read at `y`. -/
theorem ld_shift (x0 : Vec Ideal S16x96x96 .f32) (a b : Fin 5)
    (inb : ∀ d, (![0, a.val, b.val] : Fin 3 → Nat) d + S16x92x92.size d ≤ S16x96x96.size d) (y : S16x92x92.Idx) :
    View.ld x0 (Rect.unit (s := S16x96x96) ![0, a.val, b.val] S16x92x92.size inb) y = x0 (shift y a b) := by
  show x0 _ = x0 _
  congr 1
  funext d; refine Fin.ext ?_
  match d with
  | ⟨0, _⟩ => show 0 + 1 * (y 0).val = (y 0).val; omega
  | ⟨1, _⟩ => show a.val + 1 * (y 1).val = (y 1).val + a.val; omega
  | ⟨2, _⟩ => show b.val + 1 * (y 2).val = (y 2).val + b.val; omega

/-- A load of the one tap at `(a, b)`, extracted. -/
theorem ld_tap (x1 : Vec Ideal S5x5 .f32) (a b : Fin 5)
    (inb : ∀ d, (![a.val, b.val] : Fin 2 → Nat) d + S1x1.size d ≤ S5x5.size d) (h : ∀ d, (![0, 0] : Fin 2 → Nat) d < S1x1.size d) :
    extractAt ![0, 0] (View.ld x1 (Rect.unit (s := S5x5) ![a.val, b.val] S1x1.size inb)) h = x1 (ix2 a b) := by
  show x1 _ = x1 _
  congr 1
  funext d; refine Fin.ext ?_
  match d with
  | ⟨0, _⟩ => show a.val + 1 * 0 = a.val; omega
  | ⟨1, _⟩ => show b.val + 1 * 0 = b.val; omega

theorem hz : (![0, 0, 0] : Fin 3 → Nat) = fun _ => 0 := funext fun a => by fin_cases a <;> rfl

/-- The correlation of one input block. -/
def convBlk (x0 : Vec Ideal S16x96x96 .f32) (x1 : Vec Ideal S5x5 .f32) : S16x92x92.Idx → EReal :=
  fun y => ∑ a : Fin 5, ∑ b : Fin 5, x1 (ix2 a b) * x0 (shift y a b)

/-- THE BODY'S RESULT is the correlation of its input block. -/
theorem out_eq (x0 : Vec Ideal S16x96x96 .f32) (x1 : Vec Ideal S5x5 .f32) :
    out0_2 (F := Ideal) x0 x1 = convBlk x0 x1 := by
  funext y
  unfold out0_2
  rw [View.canon_unit_zero hz]
  unfold k0_pay1 k0_pay2 k0_pay3 k0_pay4 k0_pay5 k0_pay6 k0_pay7 k0_pay8 k0_pay9 k0_pay10 k0_pay11 k0_pay12 k0_pay13 k0_pay14 k0_pay15 k0_pay16
  simp only [shapeCast_self]
  show ((((((((((((((((((((((((((Ideal.ofBits .f32 0x00000000#32 : EReal) + extractAt ![0, 0] (View.ld x1 r0_0) _ * View.ld x0 r0_1 y) + extractAt ![0, 0] (View.ld x1 r0_2) _ * View.ld x0 r0_3 y) + extractAt ![0, 0] (View.ld x1 r0_4) _ * View.ld x0 r0_5 y) + extractAt ![0, 0] (View.ld x1 r0_6) _ * View.ld x0 r0_7 y) + extractAt ![0, 0] (View.ld x1 r0_8) _ * View.ld x0 r0_9 y) + extractAt ![0, 0] (View.ld x1 r0_10) _ * View.ld x0 r0_11 y) + extractAt ![0, 0] (View.ld x1 r0_12) _ * View.ld x0 r0_13 y) + extractAt ![0, 0] (View.ld x1 r0_14) _ * View.ld x0 r0_15 y) + extractAt ![0, 0] (View.ld x1 r0_16) _ * View.ld x0 r0_17 y) + extractAt ![0, 0] (View.ld x1 r0_18) _ * View.ld x0 r0_19 y) + extractAt ![0, 0] (View.ld x1 r0_20) _ * View.ld x0 r0_21 y) + extractAt ![0, 0] (View.ld x1 r0_22) _ * View.ld x0 r0_23 y) + extractAt ![0, 0] (View.ld x1 r0_24) _ * View.ld x0 r0_25 y) + extractAt ![0, 0] (View.ld x1 r0_26) _ * View.ld x0 r0_27 y) + extractAt ![0, 0] (View.ld x1 r0_28) _ * View.ld x0 r0_29 y) + extractAt ![0, 0] (View.ld x1 r0_30) _ * View.ld x0 r0_31 y) + extractAt ![0, 0] (View.ld x1 r0_32) _ * View.ld x0 r0_33 y) + extractAt ![0, 0] (View.ld x1 r0_34) _ * View.ld x0 r0_35 y) + extractAt ![0, 0] (View.ld x1 r0_36) _ * View.ld x0 r0_37 y) + extractAt ![0, 0] (View.ld x1 r0_38) _ * View.ld x0 r0_39 y) + extractAt ![0, 0] (View.ld x1 r0_40) _ * View.ld x0 r0_41 y) + extractAt ![0, 0] (View.ld x1 r0_42) _ * View.ld x0 r0_43 y) + extractAt ![0, 0] (View.ld x1 r0_44) _ * View.ld x0 r0_45 y) + extractAt ![0, 0] (View.ld x1 r0_46) _ * View.ld x0 r0_47 y) + extractAt ![0, 0] (View.ld x1 r0_48) _ * View.ld x0 r0_49 y) = _
  have t0 : extractAt ![0, 0] (View.ld x1 r0_0) inpos_S1x1_p0_0 = x1 (ix2 (0 : Fin 5) (0 : Fin 5)) := ld_tap x1 0 0 _ _
  have s0 : View.ld x0 r0_1 y = x0 (shift y (0 : Fin 5) (0 : Fin 5)) := ld_shift x0 0 0 _ y
  have t1 : extractAt ![0, 0] (View.ld x1 r0_2) inpos_S1x1_p0_0 = x1 (ix2 (0 : Fin 5) (1 : Fin 5)) := ld_tap x1 0 1 _ _
  have s1 : View.ld x0 r0_3 y = x0 (shift y (0 : Fin 5) (1 : Fin 5)) := ld_shift x0 0 1 _ y
  have t2 : extractAt ![0, 0] (View.ld x1 r0_4) inpos_S1x1_p0_0 = x1 (ix2 (0 : Fin 5) (2 : Fin 5)) := ld_tap x1 0 2 _ _
  have s2 : View.ld x0 r0_5 y = x0 (shift y (0 : Fin 5) (2 : Fin 5)) := ld_shift x0 0 2 _ y
  have t3 : extractAt ![0, 0] (View.ld x1 r0_6) inpos_S1x1_p0_0 = x1 (ix2 (0 : Fin 5) (3 : Fin 5)) := ld_tap x1 0 3 _ _
  have s3 : View.ld x0 r0_7 y = x0 (shift y (0 : Fin 5) (3 : Fin 5)) := ld_shift x0 0 3 _ y
  have t4 : extractAt ![0, 0] (View.ld x1 r0_8) inpos_S1x1_p0_0 = x1 (ix2 (0 : Fin 5) (4 : Fin 5)) := ld_tap x1 0 4 _ _
  have s4 : View.ld x0 r0_9 y = x0 (shift y (0 : Fin 5) (4 : Fin 5)) := ld_shift x0 0 4 _ y
  have t5 : extractAt ![0, 0] (View.ld x1 r0_10) inpos_S1x1_p0_0 = x1 (ix2 (1 : Fin 5) (0 : Fin 5)) := ld_tap x1 1 0 _ _
  have s5 : View.ld x0 r0_11 y = x0 (shift y (1 : Fin 5) (0 : Fin 5)) := ld_shift x0 1 0 _ y
  have t6 : extractAt ![0, 0] (View.ld x1 r0_12) inpos_S1x1_p0_0 = x1 (ix2 (1 : Fin 5) (1 : Fin 5)) := ld_tap x1 1 1 _ _
  have s6 : View.ld x0 r0_13 y = x0 (shift y (1 : Fin 5) (1 : Fin 5)) := ld_shift x0 1 1 _ y
  have t7 : extractAt ![0, 0] (View.ld x1 r0_14) inpos_S1x1_p0_0 = x1 (ix2 (1 : Fin 5) (2 : Fin 5)) := ld_tap x1 1 2 _ _
  have s7 : View.ld x0 r0_15 y = x0 (shift y (1 : Fin 5) (2 : Fin 5)) := ld_shift x0 1 2 _ y
  have t8 : extractAt ![0, 0] (View.ld x1 r0_16) inpos_S1x1_p0_0 = x1 (ix2 (1 : Fin 5) (3 : Fin 5)) := ld_tap x1 1 3 _ _
  have s8 : View.ld x0 r0_17 y = x0 (shift y (1 : Fin 5) (3 : Fin 5)) := ld_shift x0 1 3 _ y
  have t9 : extractAt ![0, 0] (View.ld x1 r0_18) inpos_S1x1_p0_0 = x1 (ix2 (1 : Fin 5) (4 : Fin 5)) := ld_tap x1 1 4 _ _
  have s9 : View.ld x0 r0_19 y = x0 (shift y (1 : Fin 5) (4 : Fin 5)) := ld_shift x0 1 4 _ y
  have t10 : extractAt ![0, 0] (View.ld x1 r0_20) inpos_S1x1_p0_0 = x1 (ix2 (2 : Fin 5) (0 : Fin 5)) := ld_tap x1 2 0 _ _
  have s10 : View.ld x0 r0_21 y = x0 (shift y (2 : Fin 5) (0 : Fin 5)) := ld_shift x0 2 0 _ y
  have t11 : extractAt ![0, 0] (View.ld x1 r0_22) inpos_S1x1_p0_0 = x1 (ix2 (2 : Fin 5) (1 : Fin 5)) := ld_tap x1 2 1 _ _
  have s11 : View.ld x0 r0_23 y = x0 (shift y (2 : Fin 5) (1 : Fin 5)) := ld_shift x0 2 1 _ y
  have t12 : extractAt ![0, 0] (View.ld x1 r0_24) inpos_S1x1_p0_0 = x1 (ix2 (2 : Fin 5) (2 : Fin 5)) := ld_tap x1 2 2 _ _
  have s12 : View.ld x0 r0_25 y = x0 (shift y (2 : Fin 5) (2 : Fin 5)) := ld_shift x0 2 2 _ y
  have t13 : extractAt ![0, 0] (View.ld x1 r0_26) inpos_S1x1_p0_0 = x1 (ix2 (2 : Fin 5) (3 : Fin 5)) := ld_tap x1 2 3 _ _
  have s13 : View.ld x0 r0_27 y = x0 (shift y (2 : Fin 5) (3 : Fin 5)) := ld_shift x0 2 3 _ y
  have t14 : extractAt ![0, 0] (View.ld x1 r0_28) inpos_S1x1_p0_0 = x1 (ix2 (2 : Fin 5) (4 : Fin 5)) := ld_tap x1 2 4 _ _
  have s14 : View.ld x0 r0_29 y = x0 (shift y (2 : Fin 5) (4 : Fin 5)) := ld_shift x0 2 4 _ y
  have t15 : extractAt ![0, 0] (View.ld x1 r0_30) inpos_S1x1_p0_0 = x1 (ix2 (3 : Fin 5) (0 : Fin 5)) := ld_tap x1 3 0 _ _
  have s15 : View.ld x0 r0_31 y = x0 (shift y (3 : Fin 5) (0 : Fin 5)) := ld_shift x0 3 0 _ y
  have t16 : extractAt ![0, 0] (View.ld x1 r0_32) inpos_S1x1_p0_0 = x1 (ix2 (3 : Fin 5) (1 : Fin 5)) := ld_tap x1 3 1 _ _
  have s16 : View.ld x0 r0_33 y = x0 (shift y (3 : Fin 5) (1 : Fin 5)) := ld_shift x0 3 1 _ y
  have t17 : extractAt ![0, 0] (View.ld x1 r0_34) inpos_S1x1_p0_0 = x1 (ix2 (3 : Fin 5) (2 : Fin 5)) := ld_tap x1 3 2 _ _
  have s17 : View.ld x0 r0_35 y = x0 (shift y (3 : Fin 5) (2 : Fin 5)) := ld_shift x0 3 2 _ y
  have t18 : extractAt ![0, 0] (View.ld x1 r0_36) inpos_S1x1_p0_0 = x1 (ix2 (3 : Fin 5) (3 : Fin 5)) := ld_tap x1 3 3 _ _
  have s18 : View.ld x0 r0_37 y = x0 (shift y (3 : Fin 5) (3 : Fin 5)) := ld_shift x0 3 3 _ y
  have t19 : extractAt ![0, 0] (View.ld x1 r0_38) inpos_S1x1_p0_0 = x1 (ix2 (3 : Fin 5) (4 : Fin 5)) := ld_tap x1 3 4 _ _
  have s19 : View.ld x0 r0_39 y = x0 (shift y (3 : Fin 5) (4 : Fin 5)) := ld_shift x0 3 4 _ y
  have t20 : extractAt ![0, 0] (View.ld x1 r0_40) inpos_S1x1_p0_0 = x1 (ix2 (4 : Fin 5) (0 : Fin 5)) := ld_tap x1 4 0 _ _
  have s20 : View.ld x0 r0_41 y = x0 (shift y (4 : Fin 5) (0 : Fin 5)) := ld_shift x0 4 0 _ y
  have t21 : extractAt ![0, 0] (View.ld x1 r0_42) inpos_S1x1_p0_0 = x1 (ix2 (4 : Fin 5) (1 : Fin 5)) := ld_tap x1 4 1 _ _
  have s21 : View.ld x0 r0_43 y = x0 (shift y (4 : Fin 5) (1 : Fin 5)) := ld_shift x0 4 1 _ y
  have t22 : extractAt ![0, 0] (View.ld x1 r0_44) inpos_S1x1_p0_0 = x1 (ix2 (4 : Fin 5) (2 : Fin 5)) := ld_tap x1 4 2 _ _
  have s22 : View.ld x0 r0_45 y = x0 (shift y (4 : Fin 5) (2 : Fin 5)) := ld_shift x0 4 2 _ y
  have t23 : extractAt ![0, 0] (View.ld x1 r0_46) inpos_S1x1_p0_0 = x1 (ix2 (4 : Fin 5) (3 : Fin 5)) := ld_tap x1 4 3 _ _
  have s23 : View.ld x0 r0_47 y = x0 (shift y (4 : Fin 5) (3 : Fin 5)) := ld_shift x0 4 3 _ y
  have t24 : extractAt ![0, 0] (View.ld x1 r0_48) inpos_S1x1_p0_0 = x1 (ix2 (4 : Fin 5) (4 : Fin 5)) := ld_tap x1 4 4 _ _
  have s24 : View.ld x0 r0_49 y = x0 (shift y (4 : Fin 5) (4 : Fin 5)) := ld_shift x0 4 4 _ y
  rw [t0, s0, t1, s1, t2, s2, t3, s3, t4, s4, t5, s5, t6, s6, t7, s7, t8, s8, t9, s9, t10, s10, t11, s11, t12, s12, t13, s13, t14, s14, t15, s15, t16, s16, t17, s17, t18, s18, t19, s19, t20, s20, t21, s21, t22, s22, t23, s23, t24, s24, Ideal.ofBits_zero_f32]
  unfold convBlk
  simp only [Fin.sum_univ_five, add_assoc, zero_add]

end Cert.KernelIdeal.Block

end
-- ==== Proof.ConvLayout.lean ====
/-
  The two arrangements of the correlation agree: reading each row of `x` [64, 9216] as a 96x96 image, correlating
  on images, and flattening the [64, 92, 92] result to [64, 8464] is the correlation stated on the flat arrays —
  pixel `(oi + a, oj + b)` of image `p` is column `(oi + a)·96 + (oj + b)` of row `p`, and flat output column
  `r` is pixel `(r / 92, r % 92)`.
-/
import proofs.«140146_j12618613916213_2_alg».proof.Proof.ConvSpec
import Idealize.ShloMosaic.Lib.Pipeline.Value

noncomputable section

namespace Cert.Conv

open Idealize.ShloMosaic Idealize.ShloMosaic.ValueIdx

theorem conv3_reshape (x : (⟨2, ![64, 9216]⟩ : Shape).Idx → EReal) (k : (⟨2, ![5, 5]⟩ : Shape).Idx → EReal)
    (h1 : (⟨2, ![64, 9216]⟩ : Shape).ShapeCasts ⟨3, ![64, 96, 96]⟩)
    (h2 : (⟨3, ![64, 92, 92]⟩ : Shape).ShapeCasts ⟨2, ![64, 8464]⟩) :
    shapeCast ⟨2, ![64, 8464]⟩ (conv3 (shapeCast ⟨3, ![64, 96, 96]⟩ x h1) k) h2 = conv x k := by
  funext i
  have hi0 : (i 0).val < 64 := (i 0).isLt
  have hi1 : (i 1).val < 8464 := (i 1).isLt
  rw [shapeCast_apply _ h2 i (ix3 (i 0) ⟨(i 1).val / 92, by omega⟩ ⟨(i 1).val % 92, Nat.mod_lt _ (by omega)⟩)
    (by rewrite [Shape.rowMajor_val_three, Shape.rowMajor_val_two]
        show ((i 0).val * 92 + (i 1).val / 92) * 92 + (i 1).val % 92 = (i 0).val * 8464 + (i 1).val
        omega)]
  unfold conv3 conv
  refine Finset.sum_congr rfl fun a _ => Finset.sum_congr rfl fun b _ => ?_
  have ha : a.val < 5 := a.isLt
  have hb : b.val < 5 := b.isLt
  congr 1
  refine shapeCast_apply x h1 _ _ ?_
  rewrite [Shape.rowMajor_val_two, Shape.rowMajor_val_three]
  show (i 0).val * 9216 + col (i 1).val a.val b.val = ((i 0).val * 96 + ((i 1).val / 92 + a.val)) * 96 + ((i 1).val % 92 + b.val)
  unfold col; omega

end Cert.Conv

end
-- ==== Proof.KernelValue.lean ====
/-
  The kernel's result array as one function of its arguments.  Grid point `t` stages images `16t … 16t + 15`
  whole and all 25 taps, and writes back the correlation of that block of images; the four blocks tile the
  [64, 92, 92] array, so after the region it holds the correlation of the [64, 96, 96] array the region found —
  which the reshape before the region made from `x` — and the reshape after the region flattens it.
-/
import proofs.«140146_j12618613916213_2_alg».proof.Proof.KernelBlock
import proofs.«140146_j12618613916213_2_alg».proof.Proof.ConvLayout
import Idealize.ShloMosaic.Lib.StableHlo.Run

set_option maxRecDepth 16384

noncomputable section

namespace Cert.KernelIdeal.RunValue

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)
open Cert.Conv

variable (m : (ℓ : Loc nD τ sig) → Buf (Elt Ideal) ℓ) (ρ : Dev nD → PrngReg)

/-- The printed index maps over the four grid points: the image window and the output window move together
    along the batch axis and sit at block zero on the others; the taps' window does not move. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (1 : Fin 3) = 0 ∧ win0_2.index t (2 : Fin 3) = 0 :=
  (by decide +kernel : ∀ t : Fin grid0.N, _)

/-- Every block of sixteen images is some point's. -/
theorem idx_onto : ∀ q0 : Fin 4, ∃ t : Fin cfg0.N, win0_2.index t = ![q0.val, 0, 0] :=
  (by decide +kernel : ∀ q0 : Fin 4, ∃ t : Fin grid0.N, win0_2.index t = ![q0.val, 0, 0])

/-- WHAT POINT `t` WRITES BACK is block `t` of the correlation of the arrays the region found. -/
theorem flushed_eq (c : Dev nD) (t : Fin cfg0.N) :
    (dats m 0 c).flushed 2 t
      = ((cfg0.win 2).blk t).view.read (Elt Ideal) (conv3 (V m c main_v0) (V m c main_arg1)) := by
  show (cfg0.win 2).cut (grid0.coords t) ((dats m 0 c).after 2 t) = _
  rw [after0_2, Block.out_eq]
  obtain ⟨e0, e1, e2, e3, e4, e5, e6⟩ := idx_facts t
  funext y
  show Block.convBlk (iblk m c 0 t) (iblk m c 1 t) y
    = conv3 (V m c main_v0) (V m c main_arg1) (((cfg0.win 2).blk t).view.emb y)
  unfold Block.convBlk conv3
  refine Finset.sum_congr rfl fun a _ => Finset.sum_congr rfl fun b _ => ?_
  have ha : a.val < 5 := a.isLt
  have hb : b.val < 5 := b.isLt
  have h1 : iblk m c 1 t (ix2 a b) = V m c main_arg1 (ix2 a b) := by
    show V m c main_arg1 (((cfg0.win 1).blk t).view.emb (ix2 a b)) = V m c main_arg1 (ix2 a b)
    exact congrArg (V m c main_arg1) (funext fun d => Fin.ext (by
      match d with
      | ⟨0, _⟩ => show win0_1.index t (0 : Fin 2) * 5 + 1 * a.val = a.val; omega
      | ⟨1, _⟩ => show win0_1.index t (1 : Fin 2) * 5 + 1 * b.val = b.val; omega))
  have h0 : iblk m c 0 t (Block.shift y a b)
      = V m c main_v0 (ix3 ((((cfg0.win 2).blk t).view.emb y) 0)
          ⟨((((cfg0.win 2).blk t).view.emb y) 1).val + a.val, by
            have h := ((((cfg0.win 2).blk t).view.emb y) 1).isLt
            have h' : ((((cfg0.win 2).blk t).view.emb y) 1).val < 92 := h
            show _ < 96; omega⟩
          ⟨((((cfg0.win 2).blk t).view.emb y) 2).val + b.val, by
            have h := ((((cfg0.win 2).blk t).view.emb y) 2).isLt
            have h' : ((((cfg0.win 2).blk t).view.emb y) 2).val < 92 := h
            show _ < 96; omega⟩) := by
    show V m c main_v0 (((cfg0.win 0).blk t).view.emb (Block.shift y a b)) = V m c main_v0 _
    exact congrArg (V m c main_v0) (funext fun d => Fin.ext (by
      match d with
      | ⟨0, _⟩ =>
        show win0_0.index t (0 : Fin 3) * 16 + 1 * (y 0).val = win0_2.index t (0 : Fin 3) * 16 + 1 * (y 0).val
        omega
      | ⟨1, _⟩ =>
        show win0_0.index t (1 : Fin 3) * 96 + 1 * ((y 1).val + a.val) = win0_2.index t (1 : Fin 3) * 92 + 1 * (y 1).val + a.val
        omega
      | ⟨2, _⟩ =>
        show win0_0.index t (2 : Fin 3) * 96 + 1 * ((y 2).val + b.val) = win0_2.index t (2 : Fin 3) * 92 + 1 * (y 2).val + b.val
        omega))
  rw [h1, h0]

/-- An index of the output array is in point `t`'s block iff each coordinate is in the block's range. -/
theorem mem_blk (t : Fin cfg0.N) (i : S64x92x92.Idx) :
    i ∈ ((cfg0.win 2).blk t).view.set ↔ ∀ a : Fin 3, win0_2.index t a * S16x92x92.size a ≤ (i a).val
      ∧ (i a).val < win0_2.index t a * S16x92x92.size a + S16x92x92.size a := by
  show i ∈ ((View.whole main_v1).slice (win0_2.rect t)).set ↔ _
  rw [View.set_slice_whole, Rect.mem_set_unit]
  exact Iff.rfl

/-- Image `p` is in the block of point `p / 16`. -/
theorem cover (i : S64x92x92.Idx) :
    ∃ t : Fin cfg0.N, (cfg0.win 2).flush t = true ∧ i ∈ ((cfg0.win 2).blk t).view.set := by
  have hi0 : (i 0).val < 64 := (i 0).isLt
  have hi1 : (i 1).val < 92 := (i 1).isLt
  have hi2 : (i 2).val < 92 := (i 2).isLt
  obtain ⟨t, ht⟩ := idx_onto ⟨(i 0).val / 16, by omega⟩
  have q0 : win0_2.index t (0 : Fin 3) = (i 0).val / 16 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 16 ≤ (i 0).val ∧ (i 0).val < win0_2.index t (0 : Fin 3) * 16 + 16; omega
  | ⟨1, _⟩ => show win0_2.index t (1 : Fin 3) * 92 ≤ (i 1).val ∧ (i 1).val < win0_2.index t (1 : Fin 3) * 92 + 92; omega
  | ⟨2, _⟩ => show win0_2.index t (2 : Fin 3) * 92 ≤ (i 2).val ∧ (i 2).val < win0_2.index t (2 : Fin 3) * 92 + 92; omega

/-- THE OUTPUT ARRAY after the region. -/
theorem final (c : Dev nD) : (dats m 0 c).arrAt 2 cfg0.N = conv3 (V m c main_v0) (V m c main_arg1) :=
  (dats m 0 c).arrAt_eq_of_cover 2 (conv3 (V m c main_v0) (V m c main_arg1)) (fun t _ => flushed_eq m c t) cover

/-- The image array the region finds is the reshape of `x`. -/
theorem V_main_v0 (c : Dev nD) :
    (V m c main_v0 : S64x96x96.Idx → EReal)
      = shapeCast S64x96x96 (m ((c : Thread nD τ).loc main_arg0)) Facts₀.shapeCasts_S64x9216_S64x96x96 := by
  show StableHlo.after hostOps0 (fun b => m (c, b)) (Proc.devRef .tc main_v0) = _
  after_results
  rfl

/-- THE RESULT after the reshape that follows the region: the correlation of the arguments. -/
theorem result_eq (c : Dev nD) :
    Pipeline.afterTail₀ cfgs (dats m) 0 (V0 m) [hostOps1] c main_v2
      = conv (m ((c : Thread nD τ).loc main_arg0)) (m ((c : Thread nD τ).loc main_arg1)) := by
  unfold Pipeline.afterTail₀
  show StableHlo.after hostOps1 _ (Proc.devRef .tc main_v2) = _
  after_results
  have hW : Pipeline.withArrays (cfgs 0).spec c (V0 m c) (fun w => (dats m 0 c).arrAt w (cfgs 0).N) (Proc.devRef .tc main_v1)
      = conv3 (V m c main_v0) (V m c main_arg1) :=
    (Pipeline.withArrays_arr spec0 launch0.win.arr_inj c _ _ 2).trans (final m c)
  show (fun i => shapeCast S64x8464 (Pipeline.withArrays (cfgs 0).spec c (V0 m c)
    (fun w => (dats m 0 c).arrAt w (cfgs 0).N) (Proc.devRef .tc main_v1)) Facts₀.shapeCasts_S64x92x92_S64x8464 i) = _
  rw [hW, V_main_v0, V_main_arg1 m c]
  exact conv3_reshape _ _ _ _

/-- THE KERNEL'S RUN, read: every weakly fair execution terminates with the result at the correlation of the
    arguments, the arguments unchanged. -/
theorem run : θ_run defs (onTc (τ := τ) (main (F := Ideal))) ⟨m, fun _ => 0, ρ⟩ fun r => ∀ c : Dev nD,
      r.2.mem ((c.tc : Thread nD τ).loc main_v2)
        = conv (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v2 (Pipeline.mem_restRefs_of main_v2 (by decide) (by decide))).trans (result_eq m c),
        ((h c).2 main_arg0 (Pipeline.mem_restRefs_of main_arg0 (by decide) (by decide))).trans (W_main_arg0 m (dats m) c),
        ((h c).1 1).trans (((dats m 0 c).arrAt_in 1 rfl _).trans ((A_eq m c 1).trans (V_main_arg1 m c)))⟩)
    (run_main m ρ)

end Cert.KernelIdeal.RunValue

end
-- ==== Proof.LibScatterPair.lean ====
/-
  A scatter into a rank-2 operand [A, B] whose scatter indices are an [R, C, 2] array of (row, column) pairs, one
  pair per update of an [R, C] array of scalar updates (both operand axes inserted, the index vector on the last
  axis: what `W.at[rows, cols].set(vals)` lowers to).  Update `(p, q)` lands on the operand index whose row is
  the signed reading of `idx[p, q, 0]` and whose column is that of `idx[p, q, 1]`, when both are inside the
  operand.  Also: 32-bit words that are small natural numbers — their signed reading, their sign test, their
  sums and products.
-/
import Idealize.ShloMosaic.PureOps
import Idealize.ShloMosaic.Lib.ValueIdx

namespace Cert.Lib.ScatterPair

open Idealize.ShloMosaic Idealize.ShloMosaic.ValueIdx

/-- Those dimension numbers; their conditions `wf` are decided on a program's literal shapes. -/
abbrev pairDims (A B R C : Nat) (wf : ScatterDims.WF ⟨2, ![A, B]⟩ ⟨3, ![R, C, 2]⟩ ⟨2, ![R, C]⟩ [] [0, 1] [0, 1] 2) :
    ScatterDims ⟨2, ![A, B]⟩ ⟨3, ![R, C, 2]⟩ ⟨2, ![R, C]⟩ where
  updateWindowDims := []
  insertedWindowDims := [0, 1]
  scatterDimsToOperandDims := [0, 1]
  indexVectorDim := 2
  wf := wf

/-- The scatter-indices index `[p, q, c]` of update index `(p, q)` and component `c`. -/
abbrev pairIdx {R C : Nat} (y : (⟨2, ![R, C]⟩ : Shape).Idx) (c : Fin 2) : (⟨3, ![R, C, 2]⟩ : Shape).Idx :=
  fun a => match a with | ⟨0, _⟩ => ⟨(y 0).val, idx2_lt0 y⟩ | ⟨1, _⟩ => ⟨(y 1).val, idx2_lt1 y⟩ | ⟨2, _⟩ => c

theorem start0 {A B R C w : Nat} (wf) (j : (⟨2, ![R, C]⟩ : Shape).Idx) (idx : IVec ⟨3, ![R, C, 2]⟩ w) :
    (pairDims A B R C wf).start j idx 0 = (idx (pairIdx j 0)).toInt := by
  unfold ScatterDims.start
  rw [dif_pos (show (0 : Fin 2) ∈ ([0, 1] : List (Fin 2)) from List.mem_cons_self ..)]
  congr 2
  funext b; refine Fin.ext ?_
  match b with
  | ⟨0, _⟩ => rfl
  | ⟨1, _⟩ => rfl
  | ⟨2, _⟩ => rfl

theorem start1 {A B R C w : Nat} (wf) (j : (⟨2, ![R, C]⟩ : Shape).Idx) (idx : IVec ⟨3, ![R, C, 2]⟩ w) :
    (pairDims A B R C wf).start j idx 1 = (idx (pairIdx j 1)).toInt := by
  unfold ScatterDims.start
  rw [dif_pos (show (1 : Fin 2) ∈ ([0, 1] : List (Fin 2)) from List.mem_cons_of_mem _ (List.mem_cons_self ..))]
  congr 2
  funext b; refine Fin.ext ?_
  match b with
  | ⟨0, _⟩ => rfl
  | ⟨1, _⟩ => rfl
  | ⟨2, _⟩ => rfl

/-- Both operand axes are inserted: no window coordinate on either. -/
theorem window_zero {A B R C : Nat} (wf) (j : (⟨2, ![R, C]⟩ : Shape).Idx) (a : Fin 2) :
    (pairDims A B R C wf).window j a = 0 := by
  unfold ScatterDims.window
  rw [dif_neg]
  show a ∉ (⟨2, ![A, B]⟩ : Shape).kept [0, 1]
  simp only [Shape.kept, List.mem_filter, List.mem_finRange, true_and, decide_not, Bool.not_eq_eq_eq_not, Bool.not_true, decide_eq_false_iff_not, not_not]
  match a with
  | ⟨0, _⟩ => exact List.mem_cons_self ..
  | ⟨1, _⟩ => exact List.mem_cons_of_mem _ (List.mem_cons_self ..)

/-- WHERE UPDATE `j` LANDS: at row `a`, column `b`, when its index pair reads (signed) as the natural numbers
    `a < A`, `b < B`. -/
theorem resultIdx_pair {A B R C w : Nat} (wf) (j : (⟨2, ![R, C]⟩ : Shape).Idx) (idx : IVec ⟨3, ![R, C, 2]⟩ w)
    (a b : Nat) (ha : a < A) (hb : b < B) (h0 : (idx (pairIdx j 0)).toInt = (a : Int)) (h1 : (idx (pairIdx j 1)).toInt = (b : Int)) :
    (pairDims A B R C wf).resultIdx? j idx = some (ix2 ⟨a, ha⟩ ⟨b, hb⟩) := by
  unfold ScatterDims.resultIdx?
  have hs : ∀ x : Fin 2, (pairDims A B R C wf).start j idx x + (pairDims A B R C wf).window j x = (![(a : Int), (b : Int)] x) := by
    intro x
    rw [window_zero]
    match x with
    | ⟨0, _⟩ => rw [show (⟨0, by omega⟩ : Fin 2) = 0 from rfl, start0, h0]; rfl
    | ⟨1, _⟩ => rw [show (⟨1, by omega⟩ : Fin 2) = 1 from rfl, start1, h1]; rfl
  rw [dif_pos]
  · congr 1
    funext x
    refine Fin.ext ?_
    show ((pairDims A B R C wf).start j idx x + (pairDims A B R C wf).window j x).toNat = _
    rw [hs]
    match x with
    | ⟨0, _⟩ => rfl
    | ⟨1, _⟩ => rfl
  · intro x
    rw [hs]
    match x with
    | ⟨0, _⟩ => exact ⟨Int.natCast_nonneg _, by show (a : Int) < (A : Int); exact_mod_cast ha⟩
    | ⟨1, _⟩ => exact ⟨Int.natCast_nonneg _, by show (b : Int) < (B : Int); exact_mod_cast hb⟩

/-! ## 32-bit words that are small natural numbers -/

/-- The signed reading of the word of a natural number below 2^31 is that number. -/
theorem toInt_ofNat_small (n : Nat) (h : n < 2 ^ 31) : (BitVec.ofNat 32 n).toInt = (n : Int) := by
  rw [BitVec.toInt_eq_toNat_of_lt (by rw [BitVec.toNat_ofNat, Nat.mod_eq_of_lt (by omega)]; omega), BitVec.toNat_ofNat,
    Nat.mod_eq_of_lt (by omega)]

/-- Such a word is not negative. -/
theorem slt_zero_small (n : Nat) (h : n < 2 ^ 31) : IntOp.cmpi .slt (BitVec.ofNat 32 n) 0#32 = 0#1 := by
  unfold IntOp.cmpi
  show BitVec.ofBool ((BitVec.ofNat 32 n).slt 0#32) = 0#1
  rw [BitVec.slt_eq_decide, toInt_ofNat_small n h]
  have : ¬ ((n : Int) < (0#32 : BitVec 32).toInt) := by
    rw [show (0#32 : BitVec 32).toInt = 0 from rfl]; omega
  rw [decide_eq_false this]; rfl

theorem addi_ofNat (a b : Nat) : IntOp.addi (BitVec.ofNat 32 a) (BitVec.ofNat 32 b) = BitVec.ofNat 32 (a + b) := by
  show BitVec.ofNat 32 a + BitVec.ofNat 32 b = _
  rw [BitVec.ofNat_add]

theorem muli_ofNat (a b : Nat) : IntOp.muli (BitVec.ofNat 32 a) (BitVec.ofNat 32 b) = BitVec.ofNat 32 (a * b) := by
  show BitVec.ofNat 32 a * BitVec.ofNat 32 b = _
  rw [BitVec.ofNat_mul]

end Cert.Lib.ScatterPair
-- ==== Proof.LibScatterSet.lean ====
/-
  A scatter whose update rule keeps the update and drops the old element (`x.at[idx].set(v)`), read at one
  operand index.  The scatter is a left fold over the update positions in row-major order; each step overwrites
  the operand index its update lands on.  Hence, at an operand index `i'`:
  * if no update lands on `i'`, the result there is the operand's own element;
  * if some update lands on `i'` and all the updates that land there carry one value `v`, the result there
    is `v` (whichever of them came last).
  Nothing is assumed of the element type, the shapes or the dimension numbers.
-/
import Idealize.ShloMosaic.PureOps

namespace Cert.Lib.ScatterSet

open Idealize.ShloMosaic

variable {α : Type} {s si u : Shape} {w : Nat}

/-- One step of the fold: update position `n` overwrites the index it lands on, if it lands inside. -/
def step (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

theorem step_some (d : ScatterDims s si u) (idx : IVec si w) (upd : u.Idx → α) (r : s.Idx → α) (n : Fin u.numel)
    (i : s.Idx) (h : d.resultIdx? (u.rowMajor.symm n) idx = some i) (i' : s.Idx) :
    step d idx upd r n i' = if i' = i then upd (u.rowMajor.symm n) else r i' := by
  unfold step; rw [h]

theorem step_none (d : ScatterDims s si u) (idx : IVec si w) (upd : u.Idx → α) (r : s.Idx → α) (n : Fin u.numel)
    (h : d.resultIdx? (u.rowMajor.symm n) idx = none) : step d idx upd r n = r := by
  unfold step; rw [h]

/-- A step whose update does not land on `i'` leaves the element at `i'` alone. -/
theorem step_of_ne (d : ScatterDims s si u) (idx : IVec si w) (upd : u.Idx → α) (r : s.Idx → α) (n : Fin u.numel)
    (i' : s.Idx) (h : d.resultIdx? (u.rowMajor.symm n) idx ≠ some i') : step d idx upd r n i' = r i' := by
  cases hl : d.resultIdx? (u.rowMajor.symm n) idx with
  | none => rw [step_none d idx upd r n hl]
  | some i =>
    rw [step_some d idx upd r n i hl, if_neg]
    intro e; exact h (by rw [hl, e])

/-- The scatter is the fold of `step`. -/
theorem scatter_eq_foldl (d : ScatterDims s si u) (x : s.Idx → α) (idx : IVec si w) (upd : u.Idx → α) :
    Host.scatter d (fun _ b => b) x idx upd = (List.finRange u.numel).foldl (step d idx upd) x := rfl

/-- Over any list of update positions none of which lands on `i'`, the fold keeps the element at `i'`. -/
theorem foldl_miss (d : ScatterDims s si u) (idx : IVec si w) (upd : u.Idx → α) (i' : s.Idx) :
    ∀ (l : List (Fin u.numel)) (x : s.Idx → α),
      (∀ n ∈ l, d.resultIdx? (u.rowMajor.symm n) idx ≠ some i') → l.foldl (step d idx upd) x i' = x i'
  | [], _, _ => rfl
  | a :: l, x, h => by
    rw [List.foldl_cons, foldl_miss d idx upd i' l _ (fun n hn => h n (List.mem_cons_of_mem _ hn))]
    exact step_of_ne d idx upd x a i' (h a (List.mem_cons_self ..))

/-- Over any list of update positions one of which lands on `i'`, all that land there carrying `v`, the fold
    leaves `v` at `i'`. -/
theorem foldl_hit (d : ScatterDims s si u) (idx : IVec si w) (upd : u.Idx → α) (i' : s.Idx) (v : α) :
    ∀ (l : List (Fin u.numel)) (x : s.Idx → α),
      (∃ n ∈ l, d.resultIdx? (u.rowMajor.symm n) idx = some i') →
      (∀ n ∈ l, d.resultIdx? (u.rowMajor.symm n) idx = some i' → upd (u.rowMajor.symm n) = v) →
      l.foldl (step d idx upd) x i' = v
  | [], _, hex, _ => by obtain ⟨n, hn, _⟩ := hex; cases hn
  | a :: l, x, hex, hall => by
    rw [List.foldl_cons]
    by_cases hl : ∃ n ∈ l, d.resultIdx? (u.rowMajor.symm n) idx = some i'
    · exact foldl_hit d idx upd i' v l _ hl (fun n hn => hall n (List.mem_cons_of_mem _ hn))
    · have hl' : ∀ n ∈ l, d.resultIdx? (u.rowMajor.symm n) idx ≠ some i' := fun n hn e => hl ⟨n, hn, e⟩
      rw [foldl_miss d idx upd i' l _ hl']
      obtain ⟨n, hn, hne⟩ := hex
      have hna : n = a := by
        rcases List.mem_cons.mp hn with e | e
        · exact e
        · exact absurd hne (hl' n e)
      subst hna
      rw [step_some d idx upd x n i' hne, if_pos rfl]
      exact hall n (List.mem_cons_self ..) hne

/-- THE SCATTER AT AN INDEX NO UPDATE LANDS ON: the operand's element. -/
theorem scatter_set_apply_of_miss (d : ScatterDims s si u) (x : s.Idx → α) (idx : IVec si w) (upd : u.Idx → α)
    (i' : s.Idx) (hmiss : ∀ j : u.Idx, d.resultIdx? j idx ≠ some i') :
    Host.scatter d (fun _ b => b) x idx upd i' = x i' := by
  rw [scatter_eq_foldl]
  exact foldl_miss d idx upd i' _ x (fun n _ => hmiss _)

/-- THE SCATTER AT AN INDEX SOME UPDATE LANDS ON, every update landing there carrying `v`: it is `v`. -/
theorem scatter_set_apply_of_hit (d : ScatterDims s si u) (x : s.Idx → α) (idx : IVec si w) (upd : u.Idx → α)
    (i' : s.Idx) (v : α) (hex : ∃ j : u.Idx, d.resultIdx? j idx = some i')
    (hall : ∀ j : u.Idx, d.resultIdx? j idx = some i' → upd j = v) :
    Host.scatter d (fun _ b => b) x idx upd i' = v := by
  rw [scatter_eq_foldl]
  obtain ⟨j, hj⟩ := hex
  refine foldl_hit d idx upd i' v _ x ⟨u.rowMajor j, List.mem_finRange _, ?_⟩ (fun n _ h => hall _ h)
  rw [Equiv.symm_apply_apply]; exact hj

end Cert.Lib.ScatterSet
-- ==== Proof.RefMatrix.lean ====
/-
  The reference's scatter indices and the matrix it scatters the taps into, read at an index.
  Update `(r, q)` of the [8464, 25] array of updates carries tap `(q / 5, q % 5)` and its index pair is
  (row `r`, column `col r (q / 5) (q % 5)`): the row is an iota, the column the 32-bit arithmetic
  `(oi + a)·96 + (oj + b)` on small numbers, and neither is negative, so the "add the extent if negative"
  selects keep them.  Hence row `r` of the scattered matrix holds tap `(a, b)` at column `col r a b`
  (one update lands there, distinct taps landing on distinct columns) and zero elsewhere.
-/
import proofs.«140146_j12618613916213_2_alg».proof.Proof.Gen.ReferenceIdeal.Read
import proofs.«140146_j12618613916213_2_alg».proof.Proof.LibScatterPair
import proofs.«140146_j12618613916213_2_alg».proof.Proof.LibScatterSet
import proofs.«140146_j12618613916213_2_alg».proof.Proof.ConvSpec

noncomputable section

namespace Cert.ReferenceIdeal.RefValue

open Cert.ReferenceIdeal Cert.ReferenceIdeal.Gen Cert.ReferenceIdeal.Read Idealize.ShloMosaic Idealize.ShloMosaic.ValueIdx
open Cert.Lib.ScatterPair Cert.Lib.ScatterSet Cert.Conv

/-- Update index `(r, q)` with a unit third axis. -/
abbrev unitIdx (j : S8464x25.Idx) : S8464x25x1.Idx := fun a => match a with
  | ⟨0, _⟩ => ⟨(j 0).val, (j 0).isLt⟩
  | ⟨1, _⟩ => ⟨(j 1).val, (j 1).isLt⟩
  | ⟨2, _⟩ => ⟨0, Nat.one_pos⟩

/-- The row component of update `j`'s index pair is the word of its row number. -/
theorem idx_row (j : S8464x25.Idx) : val_main_v40 (F := Ideal) (pairIdx j 0) = BitVec.ofNat 32 (j 0).val := by
  have e : val_main_v40 (F := Ideal) (pairIdx j 0) = val_main_v38 (F := Ideal) (unitIdx j) := by
    unfold val_main_v40
    exact concatenate_pair_apply_left 2 _ _ concatenates_S8464x25x1_S8464x25x1_S8464x25x2_d2 (pairIdx j 0) rfl (unitIdx j)
      (fun b => match b with | ⟨0, _⟩ => rfl | ⟨1, _⟩ => rfl | ⟨2, _⟩ => rfl)
  rw [e, val_main_v38_apply, val_main_v37_apply, val_main_v31_apply, val_main_v28_apply, val_main_v23_apply, val_main_v22_apply,
    val_main_v27_apply, val_main_c_0_apply]
  have hlt : (j 0).val < 2 ^ 31 := by have : (j 0).val < 8464 := (j 0).isLt; omega
  show Scalar.select (IntOp.cmpi .slt (BitVec.ofNat 32 (j 0).val) 0#32) _ (BitVec.ofNat 32 (j 0).val) = _
  rw [slt_zero_small _ hlt, select_zero]

/-- The column the index arithmetic computes for update `j`, as a natural number. -/
def colOf (j : S8464x25.Idx) : Nat :=
  (((j 0).val * 25 + (j 1).val) / 2300 + ((j 0).val * 25 + (j 1).val) / 5 % 5) * 96 +
    (((j 0).val * 25 + (j 1).val) / 25 % 92 + ((j 0).val * 25 + (j 1).val) % 5)

/-- It is the column of tap `(q / 5, q % 5)` under pixel `r`. -/
theorem colOf_eq (j : S8464x25.Idx) : colOf j = col (j 0).val ((j 1).val / 5) ((j 1).val % 5) := by
  have h0 : (j 0).val < 8464 := (j 0).isLt
  have h1 : (j 1).val < 25 := (j 1).isLt
  unfold colOf col; omega

theorem colOf_lt (j : S8464x25.Idx) : colOf j < 9216 := by
  have h1 : (j 1).val < 25 := (j 1).isLt
  rw [colOf_eq]; exact col_lt (j 0).isLt (by omega) (by omega)

/-- The reshaped column array at update `j` is the word of that number: sums and products of words of small
    numbers are the words of the sums and products. -/
theorem v21_eq (j : S8464x25.Idx) : val_main_v21 (F := Ideal) j = BitVec.ofNat 32 (colOf j) := by
  rw [val_main_v21_apply, val_main_v20_apply, val_main_v14_apply, val_main_v12_apply, val_main_v10_apply, val_main_v8_apply,
    val_main_v2_apply, val_main_v0_apply, val_main_v11_apply, val_main_v9_apply, val_main_v6_apply, val_main_v4_apply,
    val_main_v13_apply, val_main_c_apply, val_main_v19_apply, val_main_v17_apply, val_main_v15_apply, val_main_v3_apply,
    val_main_v1_apply, val_main_v18_apply, val_main_v16_apply, val_main_v7_apply, val_main_v5_apply]
  show IntOp.addi (IntOp.muli (IntOp.addi (BitVec.ofNat 32 (((j 0).val * 25 + (j 1).val) / 2300))
        (BitVec.ofNat 32 (((j 0).val * 25 + (j 1).val) / 5 % 5))) (BitVec.ofNat 32 96))
      (IntOp.addi (BitVec.ofNat 32 (((j 0).val * 25 + (j 1).val) / 25 % 92)) (BitVec.ofNat 32 (((j 0).val * 25 + (j 1).val) % 5))) = _
  rw [addi_ofNat, muli_ofNat, addi_ofNat, addi_ofNat]; rfl

/-- The column component of update `j`'s index pair. -/
theorem idx_col (j : S8464x25.Idx) : val_main_v40 (F := Ideal) (pairIdx j 1) = BitVec.ofNat 32 (colOf j) := by
  have e : val_main_v40 (F := Ideal) (pairIdx j 1) = val_main_v39 (F := Ideal) (unitIdx j) := by
    unfold val_main_v40
    exact concatenate_pair_apply_right 2 _ _ concatenates_S8464x25x1_S8464x25x1_S8464x25x2_d2 (pairIdx j 1) rfl rfl (unitIdx j)
      (fun b hb => match b, hb with | ⟨0, _⟩, _ => rfl | ⟨1, _⟩, _ => rfl | ⟨2, _⟩, hb => absurd rfl hb) rfl
  have ej : idx_main_v39 (unitIdx j) = j := funext fun a => match a with | ⟨0, _⟩ => rfl | ⟨1, _⟩ => rfl
  have hlt : colOf j < 2 ^ 31 := by have := colOf_lt j; omega
  rw [e, val_main_v39_apply, ej, val_main_v36_apply, val_main_v33_apply, val_main_v32_apply, val_main_c_2_apply, v21_eq,
    slt_zero_small _ hlt, select_zero]

/-- Where update `j` lands in the [8464, 9216] matrix. -/
def landing (j : S8464x25.Idx) : S8464x9216.Idx := ix2 ⟨(j 0).val, (j 0).isLt⟩ ⟨colOf j, colOf_lt j⟩

theorem lands (j : S8464x25.Idx) :
    scatter_S8464x9216_S8464x25x2_S8464x25_n_01_01_2.resultIdx? j (val_main_v40 (F := Ideal)) = some (landing j) := by
  have hr : (j 0).val < 2 ^ 31 := by have : (j 0).val < 8464 := (j 0).isLt; omega
  have hc : colOf j < 2 ^ 31 := by have := colOf_lt j; omega
  exact resultIdx_pair Facts₀.scatter_S8464x9216_S8464x25x2_S8464x25_n_01_01_2_wf j (val_main_v40 (F := Ideal)) (j 0).val (colOf j)
    (j 0).isLt (colOf_lt j) (by rw [idx_row]; exact toInt_ofNat_small _ hr) (by rw [idx_col]; exact toInt_ofNat_small _ hc)

/-- ROW `r` OF THE SCATTERED MATRIX AT THE COLUMN OF TAP `(a, b)`: the tap. -/
theorem W_hit (k : (⟨S5x5, .f32⟩ : BufTy).Contents (Elt Ideal)) (r : Fin 8464) (a b : Fin 5) :
    val_main_v41 (F := Ideal) k (ix2 r ⟨col r.val a.val b.val, col_lt r.isLt a.isLt b.isLt⟩) = k (ix2 a b) := by
  have ha : a.val < 5 := a.isLt
  have hb : b.val < 5 := b.isLt
  unfold val_main_v41
  refine scatter_set_apply_of_hit _ _ _ _ _ _ ⟨ix2 r ⟨a.val * 5 + b.val, by omega⟩, ?_⟩ ?_
  · rw [lands]
    congr 1
    funext x; refine Fin.ext ?_
    match x with
    | ⟨0, _⟩ => rfl
    | ⟨1, _⟩ =>
      show colOf (ix2 r ⟨a.val * 5 + b.val, _⟩) = col r.val a.val b.val
      rw [colOf_eq]
      show col r.val ((a.val * 5 + b.val) / 5) ((a.val * 5 + b.val) % 5) = _
      rw [show (a.val * 5 + b.val) / 5 = a.val by omega, show (a.val * 5 + b.val) % 5 = b.val by omega]
  · intro j hj
    rw [lands] at hj
    have hl : landing j = ix2 r ⟨col r.val a.val b.val, col_lt r.isLt a.isLt b.isLt⟩ := Option.some.inj hj
    have h0 : (j 0).val = r.val := congrArg (fun i : S8464x9216.Idx => (i 0).val) hl
    have h1 : colOf j = col r.val a.val b.val := congrArg (fun i : S8464x9216.Idx => (i 1).val) hl
    rw [colOf_eq, h0] at h1
    have hq : (j 1).val < 25 := (j 1).isLt
    obtain ⟨e1, e2⟩ := col_inj (by omega) hb h1
    rw [val_main_v25_apply, val_main_v24_apply]
    congr 1
    funext x; refine Fin.ext ?_
    match x with
    | ⟨0, _⟩ => exact e1
    | ⟨1, _⟩ => exact e2

/-- ROW `r` AT A COLUMN NO TAP READS: zero, the matrix's initial contents. -/
theorem W_miss (k : (⟨S5x5, .f32⟩ : BufTy).Contents (Elt Ideal)) (r : Fin 8464) (c : Fin 9216)
    (h : ∀ a b : Fin 5, c.val ≠ col r.val a.val b.val) : val_main_v41 (F := Ideal) k (ix2 r c) = 0 := by
  unfold val_main_v41
  refine (scatter_set_apply_of_miss _ _ _ _ _ ?_).trans ?_
  · intro j hj
    rw [lands] at hj
    have hl : landing j = ix2 r c := Option.some.inj hj
    have h0 : (j 0).val = r.val := congrArg (fun i : S8464x9216.Idx => (i 0).val) hl
    have h1 : colOf j = c.val := congrArg (fun i : S8464x9216.Idx => (i 1).val) hl
    rw [colOf_eq, h0] at h1
    have hq : (j 1).val < 25 := (j 1).isLt
    exact h ⟨(j 1).val / 5, by omega⟩ ⟨(j 1).val % 5, by omega⟩ h1.symm
  · rw [val_main_v26_apply, val_main_cst_apply]
    exact Ideal.ofBits_zero_f32

end Cert.ReferenceIdeal.RefValue

end
-- ==== Proof.RefValue.lean ====
/-
  The reference's result is the correlation: its `dot_general` sums, over the 9216 columns `c`, `x[p, c]` times the
  transposed scattered matrix at `(c, r)`, that is the scattered matrix's row `r` at column `c` — the tap at a
  tap's column, zero at every other.
-/
import proofs.«140146_j12618613916213_2_alg».proof.Proof.RefMatrix

noncomputable section

namespace Cert.ReferenceIdeal.RefValue

open Cert.ReferenceIdeal Cert.ReferenceIdeal.Gen Cert.ReferenceIdeal.Read Idealize.ShloMosaic Idealize.ShloMosaic.ValueIdx
open Cert.Conv

theorem ref_eq (x : (⟨S64x9216, .f32⟩ : BufTy).Contents (Elt Ideal)) (k : (⟨S5x5, .f32⟩ : BufTy).Contents (Elt Ideal)) :
    val_main_v43 (F := Ideal) x k = conv x k := by
  funext i
  rw [val_main_v43_apply]
  have e : ∀ c : Fin 9216, x (lidx_main_v43 i c) * val_main_v42 (F := Ideal) k (ridx_main_v43 i c)
      = x (ix2 (i 0) c) * val_main_v41 (F := Ideal) k (ix2 (i 1) c) := by
    intro c
    rw [val_main_v42_apply]
    have el : lidx_main_v43 i c = ix2 (i 0) c := funext fun a => match a with | ⟨0, _⟩ => rfl | ⟨1, _⟩ => rfl
    have er : idx_main_v42 (ridx_main_v43 i c) = ix2 (i 1) c := funext fun a => match a with | ⟨0, _⟩ => rfl | ⟨1, _⟩ => rfl
    rw [el, er]
    rfl
  rw [Finset.sum_congr rfl (fun c _ => e c)]
  exact sum_mul_sparse_eq_conv x k (val_main_v41 (F := Ideal) k) i (fun a b => W_hit k (i 1) a b) (fun c h => W_miss k (i 1) c h)

end Cert.ReferenceIdeal.RefValue

end
-- ==== Proof.lean ====
/-
  The kernel computes, image by image, the 5x5 "valid" correlation of 64 images of 96x96 pixels — 25 shifted
  windows of a block of sixteen images, each scaled by its tap and added to a running sum that starts at zero —
  on a grid of four blocks, between a reshape of the [64, 9216] rows to images and a reshape of the [64, 92, 92]
  result to [64, 8464].  The reference scatters the 25 taps into an [8464, 9216] matrix of zeros — row
  `r = 92·oi + oj` receives tap `(a, b)` at column `(oi + a)·96 + (oj + b)` — and multiplies the rows of `x`
  by its transpose.  On the extended reals both are
      out[p, r] = Σ over the 25 taps (a, b) of k[a, b] · x[p, (r / 92 + a)·96 + (r % 92 + b)]:
  in the reference's sum over 9216 columns the columns no tap reads contribute `x · 0 = 0`, which holds for every
  extended real, and the 25 others are re-indexed by the taps (distinct taps read distinct columns); on the kernel's
  side the running sum is re-associated.  Only commutativity and associativity of + and ·, `0 + a = a` and
  `a · 0 = 0` are used, so the inputs' finiteness is never needed.  The idealization rewrote nothing, so the
  kernel's and its idealization's agreement is trivial; the three frames are the generated frame runs (the
  reference's is its generated run with the result dropped).
-/
import proofs.«140146_j12618613916213_2_alg».proof.Defs
import proofs.«140146_j12618613916213_2_alg».proof.Proof.Gen.Kernel
import proofs.«140146_j12618613916213_2_alg».proof.Proof.Gen.Kernel.Skeleton
import proofs.«140146_j12618613916213_2_alg».proof.Proof.Gen.Kernel.Launch
import proofs.«140146_j12618613916213_2_alg».proof.Proof.Gen.Kernel.Points
import proofs.«140146_j12618613916213_2_alg».proof.Proof.Gen.Kernel.Frame
import proofs.«140146_j12618613916213_2_alg».proof.Proof.Gen.KernelIdeal
import proofs.«140146_j12618613916213_2_alg».proof.Proof.Gen.KernelIdeal.Skeleton
import proofs.«140146_j12618613916213_2_alg».proof.Proof.Gen.KernelIdeal.Launch
import proofs.«140146_j12618613916213_2_alg».proof.Proof.Gen.KernelIdeal.Points
import proofs.«140146_j12618613916213_2_alg».proof.Proof.Gen.KernelIdeal.Frame
import proofs.«140146_j12618613916213_2_alg».proof.Proof.Gen.ReferenceIdeal
import proofs.«140146_j12618613916213_2_alg».proof.Proof.Gen.Pre_finite_inputs
import proofs.«140146_j12618613916213_2_alg».proof.Proof.Gen.ReferenceIdeal.Run
import proofs.«140146_j12618613916213_2_alg».proof.Proof.Gen.ReferenceIdeal.Read
import proofs.«140146_j12618613916213_2_alg».proof.Proof.KernelValue
import proofs.«140146_j12618613916213_2_alg».proof.Proof.RefValue
import Idealize.ShloMosaic.Adequacy
import Idealize.ShloMosaic.Init

noncomputable section

namespace Cert.Proof

open Idealize.ShloMosaic Idealize.SL.Sem

/-- The kernel as printed runs, its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a host program: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on `x` and the taps, both programs end with the correlation `Cert.Conv.conv` of them. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v43_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
